-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S4096x1024 : Shape := ⟨2, ![4096, 1024]⟩
abbrev S4096 : Shape := ⟨1, ![4096]⟩
abbrev S2048x1024 : Shape := ⟨2, ![2048, 1024]⟩
abbrev S2048 : Shape := ⟨1, ![2048]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg7 : FVec F S4096 .f32) (main_arg8 : FVec F S2048x1024 .f32) (main_arg9 : FVec F S2048 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S2048x1024 .f32 := Host.absf main_arg8
  let main_cst_14 : FVec F S_ .f32 := constant S_ .f32 0x7F800000#32
  let main_v40 : FVec F S2048x1024 .f32 := broadcastInDim S2048x1024 ![] bcast_S_S2048x1024 main_cst_14
  let main_v41 : IVec S2048x1024 1 := cmpf .olt main_v39 main_v40
  let main_c_15 : IVec S_ 1 := constantI S_ 1 1#1
  let main_v42 : IVec S_ 1 := (fun x v => Host.reduce IntOp.andi x v reducesTo_S2048x1024_S_d0_1 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  main_v48

def fn_part1 {F : FTy → Type} [FloatOps F] (main_arg4 : FVec F S4096x1024 .f32) (main_arg5 : FVec F S4096x1024 .f32) (main_arg6 : FVec F S4096 .f32) (main_arg7 : FVec F S4096 .f32) (main_arg8 : FVec F S2048x1024 .f32) (main_arg9 : FVec F S2048 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_v33

def fn {F : FTy → Type} [FloatOps F] (main_arg0 : FVec F S8192x1024 .f32) (main_arg1 : FVec F S8192x1024 .f32) (main_arg2 : FVec F S8192x1024 .f32) (main_arg3 : FVec F S8192x1024 .f32) (main_arg4 : FVec F S4096x1024 .f32) (main_arg5 : FVec F S4096x1024 .f32) (main_arg6 : FVec F S4096 .f32) (main_arg7 : FVec F S4096 .f32) (main_arg8 : FVec F S2048x1024 .f32) (main_arg9 : FVec F S2048 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_arg5 main_arg6 main_arg7 main_arg8 main_arg9 main_v13 main_v16
-- ==== Kernel.lean ====
abbrev S8192x1024 : Shape := ⟨2, ![8192, 1024]⟩
abbrev S4096x1024 : Shape := ⟨2, ![4096, 1024]⟩
abbrev S4096 : Shape := ⟨1, ![4096]⟩
abbrev S2048x1024 : Shape := ⟨2, ![2048, 1024]⟩
abbrev S2048 : Shape := ⟨1, ![2048]⟩
abbrev S4x1024x1024 : Shape := ⟨3, ![4, 1024, 1024]⟩
abbrev S2x1024x1024 : Shape := ⟨3, ![2, 1024, 1024]⟩
abbrev S4x1x1024 : Shape := ⟨3, ![4, 1, 1024]⟩
abbrev S2x1x1024 : Shape := ⟨3, ![2, 1, 1024]⟩
abbrev S256x1024 : Shape := ⟨2, ![256, 1024]⟩
abbrev S1x1024x1024 : Shape := ⟨3, ![1, 1024, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 24
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S4096x1024, .f32⟩
  | .hbm, ⟨5, _⟩ => ⟨S4096x1024, .f32⟩
  | .hbm, ⟨6, _⟩ => ⟨S4096, .f32⟩
  | .hbm, ⟨7, _⟩ => ⟨S4096, .f32⟩
  | .hbm, ⟨8, _⟩ => ⟨S2048x1024, .f32⟩
  | .hbm, ⟨9, _⟩ => ⟨S2048, .f32⟩
  | .hbm, ⟨10, _⟩ => ⟨S4x1024x1024, .f32⟩
  | .hbm, ⟨11, _⟩ => ⟨S4x1024x1024, .f32⟩
  | .hbm, ⟨12, _⟩ => ⟨S4x1024x1024, .bf16⟩
  | .hbm, ⟨13, _⟩ => ⟨S4x1024x1024, .f32⟩
  | .hbm, ⟨14, _⟩ => ⟨S4x1024x1024, .f32⟩
  | .hbm, ⟨15, _⟩ => ⟨S4x1024x1024, .bf16⟩
  | .hbm, ⟨16, _⟩ => ⟨S2x1024x1024, .f32⟩
  | .hbm, ⟨17, _⟩ => ⟨S2x1024x1024, .f32⟩
  | .hbm, ⟨18, _⟩ => ⟨S2x1024x1024, .bf16⟩
  | .hbm, ⟨19, _⟩ => ⟨S4096, .f32⟩
  | .hbm, ⟨20, _⟩ => ⟨S4x1x1024, .f32⟩
  | .hbm, ⟨21, _⟩ => ⟨S2x1x1024, .f32⟩
  | .hbm, ⟨22, _⟩ => ⟨S8192x1024, .f32⟩
  | .hbm, ⟨23, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S4x1024x1024, .bf16⟩
  | .local _ .vmem, ⟨9, _⟩ => ⟨S4x1024x1024, .bf16⟩
  | .local _ .vmem, ⟨10, _⟩ => ⟨S2x1024x1024, .bf16⟩
  | .local _ .vmem, ⟨11, _⟩ => ⟨S4x1x1024, .f32⟩
  | .local _ .vmem, ⟨12, _⟩ => ⟨S2x1x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S4096x1024_S4x1024x1024 : S4096x1024.ShapeCasts S4x1024x1024
  transposes_S4x1024x1024_S4x1024x1024_0_2_1 : S4x1024x1024.Transposes [0, 2, 1] S4x1024x1024
  bitsLt_bf16_f32 : FTy.bits .bf16 < FTy.bits .f32
  shapeCasts_S2048x1024_S2x1024x1024 : S2048x1024.ShapeCasts S2x1024x1024
  transposes_S2x1024x1024_S2x1024x1024_0_2_1 : S2x1024x1024.Transposes [0, 2, 1] S2x1024x1024
  shapeCasts_S4096_S4x1x1024 : S4096.ShapeCasts S4x1x1024
  shapeCasts_S2048_S2x1x1024 : S2048.ShapeCasts S2x1x1024
  inb_S256x1024_S256x1024_0_0 : ∀ a, (![0, 0] : Fin 2 → Nat) a + S256x1024.size a ≤ S256x1024.size a
  h_S256x1024 : 0 < S256x1024.numel
  inb_S4x1024x1024_S1x1024x1024_0_0_0 : ∀ a, (![0, 0, 0] : Fin 3 → Nat) a + S1x1024x1024.size a ≤ S4x1024x1024.size a
  h_S1x1024x1024 : 0 < S1x1024x1024.numel
  shapeCasts_S1x1024x1024_S1024x1024 : S1x1024x1024.ShapeCasts S1024x1024
  inb_S4x1x1024_S1x1x1024_0_0_0 : ∀ a, (![0, 0, 0] : Fin 3 → Nat) a + S1x1x1024.size a ≤ S4x1x1024.size a
  h_S1x1x1024 : 0 < S1x1x1024.numel
  shapeCasts_S1x1x1024_S1x1024 : S1x1x1024.ShapeCasts S1x1024
  broadcasts_S1x1024_S256x1024 : S1x1024.Broadcasts S256x1024
  inb_S4x1024x1024_S1x1024x1024_2_0_0 : ∀ a, (![2, 0, 0] : Fin 3 → Nat) a + S1x1024x1024.size a ≤ S4x1024x1024.size a
  inb_S4x1x1024_S1x1x1024_2_0_0 : ∀ a, (![2, 0, 0] : Fin 3 → Nat) a + S1x1x1024.size a ≤ S4x1x1024.size a
  inb_S4x1024x1024_S1x1024x1024_1_0_0 : ∀ a, (![1, 0, 0] : Fin 3 → Nat) a + S1x1024x1024.size a ≤ S4x1024x1024.size a
  inb_S4x1x1024_S1x1x1024_1_0_0 : ∀ a, (![1, 0, 0] : Fin 3 → Nat) a + S1x1x1024.size a ≤ S4x1x1024.size a
  inb_S2x1024x1024_S1x1024x1024_0_0_0 : ∀ a, (![0, 0, 0] : Fin 3 → Nat) a + S1x1024x1024.size a ≤ S2x1024x1024.size a
  inb_S2x1x1024_S1x1x1024_0_0_0 : ∀ a, (![0, 0, 0] : Fin 3 → Nat) a + S1x1x1024.size a ≤ S2x1x1024.size a
  inb_S2x1024x1024_S1x1024x1024_1_0_0 : ∀ a, (![1, 0, 0] : Fin 3 → Nat) a + S1x1024x1024.size a ≤ S2x1024x1024.size a
  inb_S2x1x1024_S1x1x1024_1_0_0 : ∀ a, (![1, 0, 0] : Fin 3 → Nat) a + S1x1x1024.size a ≤ S2x1x1024.size a
  inb_S4x1024x1024_S1x1024x1024_3_0_0 : ∀ a, (![3, 0, 0] : Fin 3 → Nat) a + S1x1024x1024.size a ≤ S4x1024x1024.size a
  inb_S4x1x1024_S1x1x1024_3_0_0 : ∀ a, (![3, 0, 0] : Fin 3 → Nat) a + S1x1x1024.size a ≤ S4x1x1024.size a
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S8192x1024.size a
  hwx0_3 : ∀ i : grid0.Coords, EltTy.bits .f32 = 32 ∨ (Rect.block (s := S8192x1024) S256x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x1024x1024.size a ≤ S4x1024x1024.size a
  hwx0_4 : ∀ i : grid0.Coords, EltTy.bits .bf16 = 32 ∨ (Rect.block (s := S4x1024x1024) S4x1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x1024x1024.size a ≤ S4x1024x1024.size a
  hwx0_5 : ∀ i : grid0.Coords, EltTy.bits .bf16 = 32 ∨ (Rect.block (s := S4x1024x1024) S4x1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x1024x1024.size a ≤ S2x1024x1024.size a
  hwx0_6 : ∀ i : grid0.Coords, EltTy.bits .bf16 = 32 ∨ (Rect.block (s := S2x1024x1024) S2x1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x1x1024.size a ≤ S4x1x1024.size a
  hwx0_7 : ∀ i : grid0.Coords, EltTy.bits .f32 = 32 ∨ (Rect.block (s := S4x1x1024) S4x1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2x1x1024.size a ≤ S2x1x1024.size a
  hwx0_8 : ∀ i : grid0.Coords, EltTy.bits .f32 = 32 ∨ (Rect.block (s := S2x1x1024) S2x1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S8192x1024.size a
  hwx0_9 : ∀ i : grid0.Coords, EltTy.bits .f32 = 32 ∨ (Rect.block (s := S8192x1024) S256x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x1024.size a ≤ S8192x1024.size a
  hwx0_10 : ∀ i : grid0.Coords, EltTy.bits .f32 = 32 ∨ (Rect.block (s := S8192x1024) S256x1024.size (cc0_transform_10 i) (hinb0_10 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S4x1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S4x1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S2x1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S4x1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S2x1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12_0) S256x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v12_1) S256x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S4096x1024 : Shape := ⟨2, ![4096, 1024]⟩
abbrev S4096 : Shape := ⟨1, ![4096]⟩
abbrev S2048x1024 : Shape := ⟨2, ![2048, 1024]⟩
abbrev S2048 : Shape := ⟨1, ![2048]⟩
abbrev S1024x4096 : Shape := ⟨2, ![1024, 4096]⟩
abbrev S8192x4096 : Shape := ⟨2, ![8192, 4096]⟩
abbrev S1x4096 : Shape := ⟨2, ![1, 4096]⟩
abbrev S1024x2048 : Shape := ⟨2, ![1024, 2048]⟩
abbrev S8192x2048 : Shape := ⟨2, ![8192, 2048]⟩
abbrev S1x2048 : Shape := ⟨2, ![1, 2048]⟩
abbrev S_ : Shape := ⟨0, ![]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S4096x1024, .f32⟩
  | .hbm, ⟨5, _⟩ => ⟨S4096x1024, .f32⟩
  | .hbm, ⟨6, _⟩ => ⟨S4096, .f32⟩
  | .hbm, ⟨7, _⟩ => ⟨S4096, .f32⟩
  | .hbm, ⟨8, _⟩ => ⟨S2048x1024, .f32⟩
  | .hbm, ⟨9, _⟩ => ⟨S2048, .f32⟩
  | .hbm, ⟨10, _⟩ => ⟨S1024x4096, .f32⟩
  | .hbm, ⟨11, _⟩ => ⟨S8192x4096, .f32⟩
  | .hbm, ⟨12, _⟩ => ⟨S1x4096, .f32⟩
  | .hbm, ⟨13, _⟩ => ⟨S8192x4096, .f32⟩
  | .hbm, ⟨14, _⟩ => ⟨S8192x4096, .f32⟩
  | .hbm, ⟨15, _⟩ => ⟨S1024x4096, .f32⟩
  | .hbm, ⟨16, _⟩ => ⟨S8192x4096, .f32⟩
  | .hbm, ⟨17, _⟩ => ⟨S8192x4096, .f32⟩
  | .hbm, ⟨18, _⟩ => ⟨S1x4096, .f32⟩
  | .hbm, ⟨19, _⟩ => ⟨S8192x4096, .f32⟩
  | .hbm, ⟨20, _⟩ => ⟨S8192x4096, .f32⟩
  | .hbm, ⟨21, _⟩ => ⟨S1024x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_v24 : Ref sig .tc := ⟨.hbm, 35, rfl⟩
abbrev main_v25 : Ref sig .tc := ⟨.hbm, 36, rfl⟩
abbrev main_cst_0 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_1 : Ref sig .tc := ⟨.hbm, 42, rfl⟩
abbrev main_v30 : Ref sig .tc := ⟨.hbm, 43, rfl⟩
abbrev main_v31 : Ref sig .tc := ⟨.hbm, 44, rfl⟩
abbrev main_cst_2 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_cst_4 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_5 : Ref sig .tc := ⟨.hbm, 60, rfl⟩
abbrev main_v44 : Ref sig .tc := ⟨.hbm, 61, rfl⟩
abbrev main_v45 : Ref sig .tc := ⟨.hbm, 62, rfl⟩
abbrev main_cst_6 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  transposes_S2048x1024_S1024x2048_1_0 : S2048x1024.Transposes [1, 0] S1024x2048
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  slices_S8192x2048_S8192x1024_0_0 : S8192x2048.Slices ![0, 0] S8192x1024
  slices_S8192x2048_S8192x1024_0_1024 : S8192x2048.Slices ![0, 1024] S8192x1024
  bcast_S_S8192x1024 : S_.BroadcastsInDim S8192x1024 (![] : Fin 0 → Fin S8192x1024.rank)
  dot_S8192x1024_S1024x4096_S8192x4096_1_0_0_1_n_n_wf : DotDims.WF S8192x1024 S1024x4096 S8192x4096 [1] [0] [0] [1] [] []
  dot_S8192x1024_S1024x2048_S8192x2048_1_0_0_1_n_n_wf : DotDims.WF S8192x1024 S1024x2048 S8192x2048 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf
def dot_S8192x1024_S1024x2048_S8192x2048_1_0_0_1_n_n : DotDims S8192x1024 S1024x2048 S8192x2048 where
  lhsContracting := [1]
  rhsContracting := [0]
  lhsNonContracting := [0]
  rhsNonContracting := [1]
  lhsBatch := []
  rhsBatch := []
  wf := dot_S8192x1024_S1024x2048_S8192x2048_1_0_0_1_n_n_wf

class Facts : Prop extends Facts₀ where

variable [Facts]
-- ==== Proof.LibLayout.lean ====
/-
  Layout operations read at an index, for the shapes a row-batched kernel meets: a stack [a, b, c] of b rows per
  member flattened to [a·b, c] and back (row p·b + n of the flat array is row n of member p), a per-member row [a, c]
  given a unit middle axis [a, 1, c] and broadcast over the b rows of its member, and a vector [a] stood up as a
  column [a, 1].  Row-major order: the position of (p, n, d) in [a, b, c] is (p·b + n)·c + d.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- [a, b, c] flattened to [m, c] with m = a·b: row r = p·b + n of the result is row n of member p. -/
theorem shapeCast_abc_mc_apply {a b c m : ℕ} (x : (⟨3, ![a, b, c]⟩ : Shape).Idx → α)
    (h : (⟨3, ![a, b, c]⟩ : Shape).ShapeCasts ⟨2, ![m, c]⟩) (r : Fin m) (p : Fin a) (n : Fin b) (d : Fin c)
    (hr : r.val = p.val * b + n.val) : shapeCast ⟨2, ![m, c]⟩ x h (ix2 r d) = x (ix3 p n d) :=
  shapeCast_apply x h _ _ (by
    rw [Shape.rowMajor_val_three, Shape.rowMajor_val_two]
    show (p.val * b + n.val) * c + d.val = r.val * c + d.val
    rw [hr])

/-- [m, c] with m = a·b split to [a, b, c]: row n of member p is row r = p·b + n of the operand. -/
theorem shapeCast_mc_abc_apply {a b c m : ℕ} (x : (⟨2, ![m, c]⟩ : Shape).Idx → α)
    (h : (⟨2, ![m, c]⟩ : Shape).ShapeCasts ⟨3, ![a, b, c]⟩) (r : Fin m) (p : Fin a) (n : Fin b) (d : Fin c)
    (hr : r.val = p.val * b + n.val) : shapeCast ⟨3, ![a, b, c]⟩ x h (ix3 p n d) = x (ix2 r d) :=
  shapeCast_apply x h _ _ (by
    rw [Shape.rowMajor_val_three, Shape.rowMajor_val_two]
    show r.val * c + d.val = (p.val * b + n.val) * c + d.val
    rw [hr])

/-- [a, c] given a unit middle axis [a, 1, c]: the entries are the same. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_three, Shape.rowMajor_val_two]
    show p.val * c + d.val = (p.val * 1 + u.val) * c + d.val
    rw [hu, Nat.mul_one, Nat.add_zero])

/-- [a, 1, c] broadcast over the middle axis to [a, b, c]: every row n of member p is the member's one row. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (n : Fin b) (d : Fin c) :
    broadcastTo ⟨3, ![a, b, c]⟩ v h (ix3 p n d) = v (ix3 p (0 : Fin 1) d) := by
  refine broadcastTo_apply v h (ix3 p n d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A per-member row [a, c] given a unit middle axis and broadcast over its member's b rows: entry (p, n, d) is the
    member's entry (p, d). -/
theorem keep_apply {a b c : ℕ} (x : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (p : Fin a) (n : Fin b) (d : Fin c) :
    broadcastTo ⟨3, ![a, b, c]⟩ (shapeCast ⟨3, ![a, 1, c]⟩ x h1) h2 (ix3 p n d) = x (ix2 p d) := by
  rw [broadcastTo_a1c_abc_apply, shapeCast_ac_a1c_apply]

/-- A vector [a] stood up as a column [a, 1]. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A bias vector [b] as a row [1, b] broadcast down a rows: entry (p, q) is the bias at q. -/
theorem bias_apply {a b : ℕ} (x : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ x h1) h2 (ix2 p q) = x (ix1 q) := by
  rw [broadcastTo_1b_ab_apply, shapeCast_a_1a_apply]

end Cert.LibLayout

end
-- ==== Proof.LibStackVector.lean ====
/-
  A vector of a·c entries stood up as a stack of a rows: [a·c] reshaped to [a, 1, c].  Row-major order puts entry
  (g, 0, q) of the stack at position g·c + q of the vector.
-/
import Idealize.ShloMosaic.Lib.Pipeline.Value
import Idealize.ShloMosaic.Lib.ValueIdx

noncomputable section

namespace Cert.LibStackVector

open Idealize.ShloMosaic Idealize.ShloMosaic.ValueIdx

variable {α : Type}

/-- [n] reshaped to [a, 1, c] with n = a·c: entry (g, u, q) of the result is entry r = g·c + q of the vector. -/
theorem shapeCast_n_a1c_apply {a c n : ℕ} (x : (⟨1, ![n]⟩ : Shape).Idx → α)
    (h : (⟨1, ![n]⟩ : Shape).ShapeCasts ⟨3, ![a, 1, c]⟩) (r : Fin n) (g : Fin a) (u : Fin 1) (q : Fin c)
    (hr : r.val = g.val * c + q.val) : shapeCast ⟨3, ![a, 1, c]⟩ x h (ix3 g u q) = x (ix1 r) :=
  shapeCast_apply x h _ _ (by
    have hu : u.val = 0 := by omega
    rw [Shape.rowMajor_val_three, Shape.rowMajor_val_one]
    show r.val = (g.val * 1 + u.val) * c + q.val
    rw [hr, hu, Nat.mul_one, Nat.add_zero])

end Cert.LibStackVector

end
-- ==== Proof.Spec.lean ====
/-
  The cell this kernel computes, as one function of the ten argument arrays, entry by entry, on the extended reals.

  An LSTM cell with an attention gate, over a batch of 8192 rows and a hidden width of 1024.  The weight matrices
  stack their gates along the rows: rows g·1024 … g·1024 + 1023 of `wih` and `whh` (and of the biases) belong to
  gate g ∈ {input, forget, cell, output}, rows g·1024 … of `watt` to the two attention gates.  For a batch row p and
  a hidden unit q

    pre g   = (Σ_k x(p,k)·wih(g·1024+q, k) + Σ_k h(p,k)·whh(g·1024+q, k)) + (bih(g·1024+q) + bhh(g·1024+q))
    att g   =  Σ_k a(p,k)·watt(g·1024+q, k) + batt(g·1024+q)
    cy(p,q) = (σ(pre 0)·tanh(pre 2) + σ(pre 1)·cx(p,q)) + σ(att 0)·tanh(att 1)
    hy(p,q) =  σ(pre 3)·tanh(cy(p,q))

  with σ the logistic function 1/(1 + e^(-t)).  Sums and products are those of the extended reals; the only laws
  used between this form and another grouping of the same terms are commutativity and associativity of addition, which
  hold there without any finiteness assumption.
-/
import Idealize.ShloMosaic.PureOps.Ideal
import Idealize.ShloMosaic.Lib.ValueIdx

noncomputable section

namespace Cert.Lstm

open Idealize.ShloMosaic Idealize.ShloMosaic.ValueIdx

/-- An a×b array of extended reals. -/
abbrev Mat (a b : ℕ) : Type := (⟨2, ![a, b]⟩ : Shape).Idx → EReal
/-- A length-a vector of extended reals. -/
abbrev Vct (a : ℕ) : Type := (⟨1, ![a]⟩ : Shape).Idx → EReal

/-- Row q of gate g in a stack of four gates of 1024 rows each. -/
def row4 (g : Fin 4) (q : Fin 1024) : Fin 4096 := ⟨g.val * 1024 + q.val, by have := g.isLt; have := q.isLt; omega⟩
/-- Row q of gate g in a stack of two gates of 1024 rows each. -/
def row2 (g : Fin 2) (q : Fin 1024) : Fin 2048 := ⟨g.val * 1024 + q.val, by have := g.isLt; have := q.isLt; omega⟩

@[simp] theorem row4_val (g : Fin 4) (q : Fin 1024) : (row4 g q).val = g.val * 1024 + q.val := rfl
@[simp] theorem row2_val (g : Fin 2) (q : Fin 1024) : (row2 g q).val = g.val * 1024 + q.val := rfl

/-- The ten argument arrays. -/
structure Inputs where
  x : Mat 8192 1024
  h : Mat 8192 1024
  cx : Mat 8192 1024
  a : Mat 8192 1024
  wih : Mat 4096 1024
  whh : Mat 4096 1024
  bih : Vct 4096
  bhh : Vct 4096
  watt : Mat 2048 1024
  batt : Vct 2048

variable (I : Inputs)

/-- The pre-activation of LSTM gate g at batch row p and hidden unit q. -/
def pre (g : Fin 4) (p : Fin 8192) (q : Fin 1024) : EReal :=
  (∑ k : Fin 1024, I.x (ix2 p k) * I.wih (ix2 (row4 g q) k) + ∑ k : Fin 1024, I.h (ix2 p k) * I.whh (ix2 (row4 g q) k))
    + (I.bih (ix1 (row4 g q)) + I.bhh (ix1 (row4 g q)))

/-- The pre-activation of attention gate g at batch row p and hidden unit q. -/
def att (g : Fin 2) (p : Fin 8192) (q : Fin 1024) : EReal :=
  ∑ k : Fin 1024, I.a (ix2 p k) * I.watt (ix2 (row2 g q) k) + I.batt (ix1 (row2 g q))

/-- The new cell state at (p, q). -/
def cy (p : Fin 8192) (q : Fin 1024) : EReal :=
  (Ideal.logistic (pre I 0 p q) * Ideal.tanh (pre I 2 p q) + Ideal.logistic (pre I 1 p q) * I.cx (ix2 p q))
    + Ideal.logistic (att I 0 p q) * Ideal.tanh (att I 1 p q)

/-- The new hidden state at (p, q). -/
def hy (p : Fin 8192) (q : Fin 1024) : EReal :=
  Ideal.logistic (pre I 3 p q) * Ideal.tanh (cy I p q)

/-- The new cell state as an array. -/
def cyArr : Mat 8192 1024 := fun i => cy I (i 0) (i 1)
/-- The new hidden state as an array. -/
def hyArr : Mat 8192 1024 := fun i => hy I (i 0) (i 1)

theorem cyArr_apply (p : Fin 8192) (q : Fin 1024) : cyArr I (ix2 p q) = cy I p q := rfl
theorem hyArr_apply (p : Fin 8192) (q : Fin 1024) : hyArr I (ix2 p q) = hy I p q := rfl

end Cert.Lstm

end
-- ==== Proof.HostPrep.lean ====
/-
  The five arrays the host prepares before the launch, read at an entry, as functions of the arguments.

  Each weight matrix [n·1024, 1024] (row g·1024 + q holds the weights of hidden unit q of gate g) is split into its n
  gate slabs [n, 1024, 1024], each slab is transposed, and the format is narrowed — the identity on the extended reals.
  So the prepared stack at (g, k, q) is the weight matrix at (g·1024 + q, k).  The two LSTM bias vectors are added and
  stood up as [4, 1, 1024]; the attention bias as [2, 1, 1024]: entry (g, 0, q) is entry g·1024 + q of the vector.
-/
import proofs.«170726_j32744830664921_2_alg».proof.Proof.Gen.KernelIdeal.Frame
import proofs.«170726_j32744830664921_2_alg».proof.Proof.LibLayout
import proofs.«170726_j32744830664921_2_alg».proof.Proof.LibStackVector
import proofs.«170726_j32744830664921_2_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.HostPrep

open Cert.KernelIdeal Cert.KernelIdeal.Gen Idealize.ShloMosaic Idealize.ShloMosaic.TcCoe Idealize.SL.Sem
open Idealize.ShloMosaic.ValueIdx Idealize.ShloMosaic.StableHlo Cert.Lstm

variable (m : (ℓ : Loc nD τ sig) → Buf (Elt Ideal) ℓ)

/-- The ten argument arrays of core c, as the cell's inputs: input, hx, cx, att, weight_ih, weight_hh, bias_ih, bias_hh,
    weight_att, bias_att. -/
def inputs (c : Dev nD) : Inputs where
  x := m ((c : Thread nD τ).loc main_arg0)
  h := m ((c : Thread nD τ).loc main_arg1)
  cx := m ((c : Thread nD τ).loc main_arg2)
  a := m ((c : Thread nD τ).loc main_arg3)
  wih := m ((c : Thread nD τ).loc main_arg4)
  whh := m ((c : Thread nD τ).loc main_arg5)
  bih := m ((c : Thread nD τ).loc main_arg6)
  bhh := m ((c : Thread nD τ).loc main_arg7)
  watt := m ((c : Thread nD τ).loc main_arg8)
  batt := m ((c : Thread nD τ).loc main_arg9)

/-- The prepared w_ih stack as the host operations' term of the argument. -/
theorem V_wih (c : Dev nD) : (V m c main_v2 : FVec Ideal S4x1024x1024 .bf16)
    = (truncf (F := Ideal) .bf16 (transpose S4x1024x1024 [0, 2, 1] (shapeCast S4x1024x1024 (inputs m c).wih shapeCasts_S4096x1024_S4x1024x1024)
        transposes_S4x1024x1024_S4x1024x1024_0_2_1 : FVec Ideal S4x1024x1024 .f32) bitsLt_bf16_f32 : FVec Ideal S4x1024x1024 .bf16) := by
  dsimp only [Gen.V, Gen.hostOps0]; after_results; rfl

/-- The prepared w_hh stack as the host operations' term of the argument. -/
theorem V_whh (c : Dev nD) : (V m c main_v5 : FVec Ideal S4x1024x1024 .bf16)
    = (truncf (F := Ideal) .bf16 (transpose S4x1024x1024 [0, 2, 1] (shapeCast S4x1024x1024 (inputs m c).whh shapeCasts_S4096x1024_S4x1024x1024)
        transposes_S4x1024x1024_S4x1024x1024_0_2_1 : FVec Ideal S4x1024x1024 .f32) bitsLt_bf16_f32 : FVec Ideal S4x1024x1024 .bf16) := by
  dsimp only [Gen.V, Gen.hostOps0]; after_results; rfl

/-- The prepared w_att stack as the host operations' term of the argument. -/
theorem V_watt (c : Dev nD) : (V m c main_v8 : FVec Ideal S2x1024x1024 .bf16)
    = (truncf (F := Ideal) .bf16 (transpose S2x1024x1024 [0, 2, 1] (shapeCast S2x1024x1024 (inputs m c).watt shapeCasts_S2048x1024_S2x1024x1024)
        transposes_S2x1024x1024_S2x1024x1024_0_2_1 : FVec Ideal S2x1024x1024 .f32) bitsLt_bf16_f32 : FVec Ideal S2x1024x1024 .bf16) := by
  dsimp only [Gen.V, Gen.hostOps0]; after_results; rfl

/-- The prepared LSTM bias stack as the host operations' term of the arguments. -/
theorem V_bias (c : Dev nD) : (V m c main_v10 : FVec Ideal S4x1x1024 .f32)
    = (shapeCast S4x1x1024 (addf (F := Ideal) (φ := .f32) (s := S4096) (inputs m c).bih (inputs m c).bhh) shapeCasts_S4096_S4x1x1024 : FVec Ideal S4x1x1024 .f32) := by
  dsimp only [Gen.V, Gen.hostOps0]; after_results; rfl

/-- The prepared attention bias stack as the host operations' term of the argument. -/
theorem V_batt (c : Dev nD) : (V m c main_v11 : FVec Ideal S2x1x1024 .f32)
    = (shapeCast S2x1x1024 (inputs m c).batt shapeCasts_S2048_S2x1x1024 : FVec Ideal S2x1x1024 .f32) := by
  dsimp only [Gen.V, Gen.hostOps0]; after_results; rfl

/-- The prepared w_ih stack at (g, k, q) is weight_ih at (g·1024 + q, k). -/
theorem wih_at (c : Dev nD) (g : Fin 4) (k q : Fin 1024) :
    (V m c main_v2 : FVec Ideal S4x1024x1024 .bf16) (ix3 g k q) = (inputs m c).wih (ix2 (row4 g q) k) := by
  rw [V_wih]
  rw [truncf_apply, transpose_ix3_021_apply]
  exact Cert.LibLayout.shapeCast_mc_abc_apply _ _ (row4 g q) g q k rfl

/-- The prepared w_hh stack at (g, k, q) is weight_hh at (g·1024 + q, k). -/
theorem whh_at (c : Dev nD) (g : Fin 4) (k q : Fin 1024) :
    (V m c main_v5 : FVec Ideal S4x1024x1024 .bf16) (ix3 g k q) = (inputs m c).whh (ix2 (row4 g q) k) := by
  rw [V_whh]
  rw [truncf_apply, transpose_ix3_021_apply]
  exact Cert.LibLayout.shapeCast_mc_abc_apply _ _ (row4 g q) g q k rfl

/-- The prepared w_att stack at (g, k, q) is weight_att at (g·1024 + q, k). -/
theorem watt_at (c : Dev nD) (g : Fin 2) (k q : Fin 1024) :
    (V m c main_v8 : FVec Ideal S2x1024x1024 .bf16) (ix3 g k q) = (inputs m c).watt (ix2 (row2 g q) k) := by
  rw [V_watt]
  rw [truncf_apply, transpose_ix3_021_apply]
  exact Cert.LibLayout.shapeCast_mc_abc_apply _ _ (row2 g q) g q k rfl

/-- The prepared LSTM bias stack at (g, 0, q) is bias_ih + bias_hh at g·1024 + q. -/
theorem bias_at (c : Dev nD) (g : Fin 4) (q : Fin 1024) :
    (V m c main_v10 : FVec Ideal S4x1x1024 .f32) (ix3 g (0 : Fin 1) q)
      = (inputs m c).bih (ix1 (row4 g q)) + (inputs m c).bhh (ix1 (row4 g q)) := by
  rw [V_bias]
  exact Cert.LibStackVector.shapeCast_n_a1c_apply _ _ (row4 g q) g 0 q rfl

/-- The prepared attention bias stack at (g, 0, q) is bias_att at g·1024 + q. -/
theorem batt_at (c : Dev nD) (g : Fin 2) (q : Fin 1024) :
    (V m c main_v11 : FVec Ideal S2x1x1024 .f32) (ix3 g (0 : Fin 1) q) = (inputs m c).batt (ix1 (row2 g q)) := by
  rw [V_batt]
  exact Cert.LibStackVector.shapeCast_n_a1c_apply _ _ (row2 g q) g 0 q rfl

end Cert.KernelIdeal.HostPrep

end
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.Body.lean ====
/-
  What one grid point's body leaves in its two output blocks, entry by entry, as a function of the nine blocks it
  loads, on the extended reals.

  The body holds a 256-row tile of each of the four batch arrays (x, h, a, cx), the three weight stacks whole
  (w_ih and w_hh: four slabs [1024, 1024] each, already transposed so that slab g at (k, q) is the weight of input
  coordinate k for hidden unit q of gate g; w_att: two such slabs) and the two bias stacks ([4, 1, 1024] and
  [2, 1, 1024]).  A change of float format is the identity on the extended reals and a product into the zero
  accumulator is the plain sum over the contracted coordinate, so for a tile row p and a hidden unit q

    pre g = (Σ_k x(p,k)·w_ih(g,k,q) + Σ_k h(p,k)·w_hh(g,k,q)) + b(g,0,q)
    att g =  Σ_k a(p,k)·w_att(g,k,q) + b_att(g,0,q)
    cy    = (σ(pre 0)·tanh(pre 2) + σ(pre 1)·cx(p,q)) + σ(att 0)·tanh(att 1)
    hy    =  σ(pre 3)·tanh(cy)
-/
import proofs.«170726_j32744830664921_2_alg».proof.Proof.Gen.KernelIdeal.Frame
import proofs.«170726_j32744830664921_2_alg».proof.Proof.LibPlainDot
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx

theorem hz : (![0, 0] : Fin 2 → Nat) = fun _ => 0 := funext fun a => by fin_cases a <;> rfl

/-! ## The pre-activation vectors, at any float instance -/

section Generic
variable {F : FTy → Type} [FloatOps F]

/-- The pre-activation of one LSTM gate as the body computes it from two tiles, two weight slabs and a bias row. -/
def gateV (x0 x1 : Vec F S256x1024 .f32) (w4 w5 : Vec F S1x1024x1024 .bf16) (b : Vec F S1x1x1024 .f32) : FVec F S256x1024 .f32 :=
  addf (addf (matmul dot_S256x1024_S1024x1024_S256x1024_1_0_0_1_n_n none (truncf .bf16 x0 bitsLt_bf16_f32)
                (shapeCast S1024x1024 w4 shapeCasts_S1x1024x1024_S1024x1024) (constant S256x1024 .f32 0x00000000#32))
             (matmul dot_S256x1024_S1024x1024_S256x1024_1_0_0_1_n_n none (truncf .bf16 x1 bitsLt_bf16_f32)
                (shapeCast S1024x1024 w5 shapeCasts_S1x1024x1024_S1024x1024) (constant S256x1024 .f32 0x00000000#32)))
       (broadcastTo S256x1024 (shapeCast S1x1024 b shapeCasts_S1x1x1024_S1x1024) broadcasts_S1x1024_S256x1024)

/-- The pre-activation of one attention gate as the body computes it from a tile, a weight slab and a bias row. -/
def attV (x2 : Vec F S256x1024 .f32) (w6 : Vec F S1x1024x1024 .bf16) (b : Vec F S1x1x1024 .f32) : FVec F S256x1024 .f32 :=
  addf (matmul dot_S256x1024_S1024x1024_S256x1024_1_0_0_1_n_n none (truncf .bf16 x2 bitsLt_bf16_f32)
          (shapeCast S1024x1024 w6 shapeCasts_S1x1024x1024_S1024x1024) (constant S256x1024 .f32 0x00000000#32))
       (broadcastTo S256x1024 (shapeCast S1x1024 b shapeCasts_S1x1x1024_S1x1024) broadcasts_S1x1024_S256x1024)

/-- The input gate's activation is the logistic of its pre-activation vector. -/
theorem pay5_eq (v0 v2 : Vec F S256x1024 .f32) (v7 v9 : Vec F S1x1024x1024 .bf16) (v11 : Vec F S1x1x1024 .f32) :
    k0_pay5 v0 v2 v7 v9 v11 = logistic (gateV v0 v2 v7 v9 v11) := rfl

/-- The cell gate's two products plus its bias row are its pre-activation vector. -/
theorem pay67_eq (v0 v2 : Vec F S256x1024 .f32) (v19 v21 : Vec F S1x1024x1024 .bf16) (v23 : Vec F S1x1x1024 .f32) :
    addf (k0_pay6 v0 v2 v19 v21) (k0_pay7 v23) = gateV v0 v2 v19 v21 v23 := rfl

/-- The new cell state as the body combines it. -/
theorem pay8_eq (x0 x1 x2 x3 : Vec F S256x1024 .f32) (v18 v27 v28 : FVec F S256x1024 .f32)
    (l32 l34 : Vec F S1x1024x1024 .bf16) (l36 : Vec F S1x1x1024 .f32) (l46 : Vec F S1x1024x1024 .bf16) (l48 : Vec F S1x1x1024 .f32)
    (l54 : Vec F S1x1024x1024 .bf16) (l56 : Vec F S1x1x1024 .f32) :
    k0_pay8 (k0_pay2 x0) (k0_pay3 x1) (k0_pay4 x2) x3 v18 v27 v28 l32 l34 l36 l46 l48 l54 l56
      = addf (addf (mulf v18 (tanh (addf v27 v28))) (mulf (logistic (gateV x0 x1 l32 l34 l36)) x3))
          (mulf (logistic (attV x2 l46 l48)) (tanh (attV x2 l54 l56))) := rfl

/-- The new hidden state as the body combines it. -/
theorem pay1_eq (x0 x1 : Vec F S256x1024 .f32) (v63 : FVec F S256x1024 .f32) (l64 l66 : Vec F S1x1024x1024 .bf16) (l68 : Vec F S1x1x1024 .f32) :
    k0_pay1 (k0_pay2 x0) (k0_pay3 x1) v63 l64 l66 l68 = mulf (logistic (gateV x0 x1 l64 l66 l68)) (tanh v63) := rfl

end Generic

/-! ## Read at an entry, on the extended reals -/

/-- One tile times one weight slab, at (p, q): the sum over the contracted coordinate. -/
theorem dot_at (x : Vec Ideal S256x1024 .f32) (w : Vec Ideal S1x1024x1024 .bf16) (p : Fin 256) (q : Fin 1024) :
    matmul (F := Ideal) (φ₁ := .bf16) (φ₂ := .bf16) dot_S256x1024_S1024x1024_S256x1024_1_0_0_1_n_n none (truncf .bf16 x bitsLt_bf16_f32)
        (shapeCast S1024x1024 w shapeCasts_S1x1024x1024_S1024x1024) (constant (F := Ideal) S256x1024 .f32 0x00000000#32) (ix2 p q)
      = ∑ k : Fin 1024, x (ix2 p k) * w (ix3 (0 : Fin 1) k q) := by
  refine (Cert.PlainDot.matmul_zero_plain_apply (M := 256) (K := 1024) (N := 1024) (φ₁ := .bf16) (φ₂ := .bf16) none
    (truncf .bf16 x bitsLt_bf16_f32) (shapeCast S1024x1024 w shapeCasts_S1x1024x1024_S1024x1024) p q).trans ?_
  refine Finset.sum_congr rfl fun k _ => ?_
  rw [shapeCast_1ab_ab_apply]
  rfl

/-- A bias row [1, 1, 1024] broadcast down the tile, at (p, q). -/
theorem bias_at (b : Vec Ideal S1x1x1024 .f32) (p : Fin 256) (q : Fin 1024) :
    broadcastTo S256x1024 (shapeCast S1x1024 b shapeCasts_S1x1x1024_S1x1024) broadcasts_S1x1024_S256x1024 (ix2 p q)
      = b (ix3 (0 : Fin 1) (0 : Fin 1) q) := by
  rw [broadcastTo_1b_ab_apply, shapeCast_1ab_ab_apply]

theorem gateV_apply (x0 x1 : Vec Ideal S256x1024 .f32) (w4 w5 : Vec Ideal S1x1024x1024 .bf16) (b : Vec Ideal S1x1x1024 .f32)
    (p : Fin 256) (q : Fin 1024) :
    gateV x0 x1 w4 w5 b (ix2 p q)
      = (∑ k : Fin 1024, x0 (ix2 p k) * w4 (ix3 (0 : Fin 1) k q) + ∑ k : Fin 1024, x1 (ix2 p k) * w5 (ix3 (0 : Fin 1) k q))
          + b (ix3 (0 : Fin 1) (0 : Fin 1) q) := by
  unfold gateV
  rw [addf_apply, addf_apply, dot_at, dot_at, bias_at]

theorem attV_apply (x2 : Vec Ideal S256x1024 .f32) (w6 : Vec Ideal S1x1024x1024 .bf16) (b : Vec Ideal S1x1x1024 .f32)
    (p : Fin 256) (q : Fin 1024) :
    attV x2 w6 b (ix2 p q)
      = ∑ k : Fin 1024, x2 (ix2 p k) * w6 (ix3 (0 : Fin 1) k q) + b (ix3 (0 : Fin 1) (0 : Fin 1) q) := by
  unfold attV
  rw [addf_apply, dot_at, bias_at]

/-! ## The loads of one slab of a stack -/

/-- Slab g of a stack of four [1024, 1024] slabs, at (0, k, q), is the stack at (g, k, q). -/
theorem ld_slab4 (X : Vec Ideal S4x1024x1024 .bf16) (g : ℕ)
    (inb : ∀ a, (![g, 0, 0] : Fin 3 → ℕ) a + S1x1024x1024.size a ≤ S4x1024x1024.size a) (k q : Fin 1024) :
    View.ld X (Rect.unit (s := S4x1024x1024) ![g, 0, 0] S1x1024x1024.size inb) (ix3 (0 : Fin 1) k q)
      = X (ix3 (⟨g, inb 0⟩ : Fin 4) k q) := by
  show X _ = X _
  congr 1; funext a; apply Fin.ext
  match a with
  | ⟨0, _⟩ => show g + 1 * 0 = g; omega
  | ⟨1, _⟩ => show 0 + 1 * k.val = k.val; omega
  | ⟨2, _⟩ => show 0 + 1 * q.val = q.val; omega

/-- Slab g of a stack of two [1024, 1024] slabs. -/
theorem ld_slab2 (X : Vec Ideal S2x1024x1024 .bf16) (g : ℕ)
    (inb : ∀ a, (![g, 0, 0] : Fin 3 → ℕ) a + S1x1024x1024.size a ≤ S2x1024x1024.size a) (k q : Fin 1024) :
    View.ld X (Rect.unit (s := S2x1024x1024) ![g, 0, 0] S1x1024x1024.size inb) (ix3 (0 : Fin 1) k q)
      = X (ix3 (⟨g, inb 0⟩ : Fin 2) k q) := by
  show X _ = X _
  congr 1; funext a; apply Fin.ext
  match a with
  | ⟨0, _⟩ => show g + 1 * 0 = g; omega
  | ⟨1, _⟩ => show 0 + 1 * k.val = k.val; omega
  | ⟨2, _⟩ => show 0 + 1 * q.val = q.val; omega

/-- Row g of a stack of four bias rows [1, 1024]. -/
theorem ld_row4 (X : Vec Ideal S4x1x1024 .f32) (g : ℕ)
    (inb : ∀ a, (![g, 0, 0] : Fin 3 → ℕ) a + S1x1x1024.size a ≤ S4x1x1024.size a) (q : Fin 1024) :
    View.ld X (Rect.unit (s := S4x1x1024) ![g, 0, 0] S1x1x1024.size inb) (ix3 (0 : Fin 1) (0 : Fin 1) q)
      = X (ix3 (⟨g, inb 0⟩ : Fin 4) (0 : Fin 1) q) := by
  show X _ = X _
  congr 1; funext a; apply Fin.ext
  match a with
  | ⟨0, _⟩ => show g + 1 * 0 = g; omega
  | ⟨1, _⟩ => show 0 + 1 * 0 = 0; omega
  | ⟨2, _⟩ => show 0 + 1 * q.val = q.val; omega

/-- Row g of a stack of two bias rows [1, 1024]. -/
theorem ld_row2 (X : Vec Ideal S2x1x1024 .f32) (g : ℕ)
    (inb : ∀ a, (![g, 0, 0] : Fin 3 → ℕ) a + S1x1x1024.size a ≤ S2x1x1024.size a) (q : Fin 1024) :
    View.ld X (Rect.unit (s := S2x1x1024) ![g, 0, 0] S1x1x1024.size inb) (ix3 (0 : Fin 1) (0 : Fin 1) q)
      = X (ix3 (⟨g, inb 0⟩ : Fin 2) (0 : Fin 1) q) := by
  show X _ = X _
  congr 1; funext a; apply Fin.ext
  match a with
  | ⟨0, _⟩ => show g + 1 * 0 = g; omega
  | ⟨1, _⟩ => show 0 + 1 * 0 = 0; omega
  | ⟨2, _⟩ => show 0 + 1 * q.val = q.val; omega

/-! ## The two output blocks -/

section Blocks
variable (x0 x1 x2 x3 : Vec Ideal S256x1024 .f32) (x4 x5 : Vec Ideal S4x1024x1024 .bf16) (x6 : Vec Ideal S2x1024x1024 .bf16)
  (x7 : Vec Ideal S4x1x1024 .f32) (x8 : Vec Ideal S2x1x1024 .f32)

/-- The pre-activation of LSTM gate g at tile row p and hidden unit q, from the loaded blocks. -/
def preB (g : Fin 4) (p : Fin 256) (q : Fin 1024) : EReal :=
  (∑ k : Fin 1024, x0 (ix2 p k) * x4 (ix3 g k q) + ∑ k : Fin 1024, x1 (ix2 p k) * x5 (ix3 g k q)) + x7 (ix3 g (0 : Fin 1) q)

/-- The pre-activation of attention gate g at tile row p and hidden unit q, from the loaded blocks. -/
def attB (g : Fin 2) (p : Fin 256) (q : Fin 1024) : EReal :=
  ∑ k : Fin 1024, x2 (ix2 p k) * x6 (ix3 g k q) + x8 (ix3 g (0 : Fin 1) q)

/-- The new cell state at (p, q) from the loaded blocks. -/
def cyB (p : Fin 256) (q : Fin 1024) : EReal :=
  (Ideal.logistic (preB x0 x1 x4 x5 x7 0 p q) * Ideal.tanh (preB x0 x1 x4 x5 x7 2 p q)
      + Ideal.logistic (preB x0 x1 x4 x5 x7 1 p q) * x3 (ix2 p q))
    + Ideal.logistic (attB x2 x6 x8 0 p q) * Ideal.tanh (attB x2 x6 x8 1 p q)

/-- The new hidden state at (p, q) from the loaded blocks. -/
def hyB (p : Fin 256) (q : Fin 1024) : EReal :=
  Ideal.logistic (preB x0 x1 x4 x5 x7 3 p q) * Ideal.tanh (cyB x0 x1 x2 x3 x4 x5 x6 x7 x8 p q)

/-- The pre-activation vector of LSTM gate g, built from the loads of slab g and bias row g, at (p, q). -/
theorem gate_ld_apply (g : ℕ)
    (inb4 : ∀ a, (![g, 0, 0] : Fin 3 → ℕ) a + S1x1024x1024.size a ≤ S4x1024x1024.size a)
    (inb7 : ∀ a, (![g, 0, 0] : Fin 3 → ℕ) a + S1x1x1024.size a ≤ S4x1x1024.size a) (p : Fin 256) (q : Fin 1024) :
    gateV x0 x1 (View.ld x4 (Rect.unit (s := S4x1024x1024) ![g, 0, 0] S1x1024x1024.size inb4))
        (View.ld x5 (Rect.unit (s := S4x1024x1024) ![g, 0, 0] S1x1024x1024.size inb4))
        (View.ld x7 (Rect.unit (s := S4x1x1024) ![g, 0, 0] S1x1x1024.size inb7)) (ix2 p q)
      = preB x0 x1 x4 x5 x7 (⟨g, inb4 0⟩ : Fin 4) p q := by
  rw [gateV_apply]
  unfold preB
  refine congrArg₂ (· + ·) (congrArg₂ (· + ·) (Finset.sum_congr rfl fun k _ => ?_) (Finset.sum_congr rfl fun k _ => ?_)) ?_
  · rw [ld_slab4]
  · rw [ld_slab4]
  · rw [ld_row4]

/-- The pre-activation vector of attention gate g, built from the loads of slab g and bias row g, at (p, q). -/
theorem att_ld_apply (g : ℕ)
    (inb6 : ∀ a, (![g, 0, 0] : Fin 3 → ℕ) a + S1x1024x1024.size a ≤ S2x1024x1024.size a)
    (inb8 : ∀ a, (![g, 0, 0] : Fin 3 → ℕ) a + S1x1x1024.size a ≤ S2x1x1024.size a) (p : Fin 256) (q : Fin 1024) :
    attV x2 (View.ld x6 (Rect.unit (s := S2x1024x1024) ![g, 0, 0] S1x1024x1024.size inb6))
        (View.ld x8 (Rect.unit (s := S2x1x1024) ![g, 0, 0] S1x1x1024.size inb8)) (ix2 p q)
      = attB x2 x6 x8 (⟨g, inb6 0⟩ : Fin 2) p q := by
  rw [attV_apply]
  unfold attB
  refine congrArg₂ (· + ·) (Finset.sum_congr rfl fun k _ => ?_) ?_
  · rw [ld_slab2]
  · rw [ld_row2]

/-- The cell-state payload of the body at (p, q). -/
theorem cy_pay_apply (p : Fin 256) (q : Fin 1024) :
    k0_pay8 (k0_pay2 x0) (k0_pay3 x1) (k0_pay4 x2) x3 (k0_pay5 x0 x1 (View.ld x4 r0_1) (View.ld x5 r0_1) (View.ld x7 r0_2))
        (k0_pay6 x0 x1 (View.ld x4 r0_3) (View.ld x5 r0_3)) (k0_pay7 (View.ld x7 r0_4)) (View.ld x4 r0_5) (View.ld x5 r0_5)
        (View.ld x7 r0_6) (View.ld x6 r0_7) (View.ld x8 r0_8) (View.ld x6 r0_9) (View.ld x8 r0_10) (ix2 p q)
      = cyB x0 x1 x2 x3 x4 x5 x6 x7 x8 p q := by
  rw [pay8_eq, pay5_eq, pay67_eq]
  show (Ideal.logistic (gateV x0 x1 (View.ld x4 r0_1) (View.ld x5 r0_1) (View.ld x7 r0_2) (ix2 p q))
          * Ideal.tanh (gateV x0 x1 (View.ld x4 r0_3) (View.ld x5 r0_3) (View.ld x7 r0_4) (ix2 p q))
        + Ideal.logistic (gateV x0 x1 (View.ld x4 r0_5) (View.ld x5 r0_5) (View.ld x7 r0_6) (ix2 p q)) * x3 (ix2 p q))
      + Ideal.logistic (attV x2 (View.ld x6 r0_7) (View.ld x8 r0_8) (ix2 p q))
          * Ideal.tanh (attV x2 (View.ld x6 r0_9) (View.ld x8 r0_10) (ix2 p q)) = _
  rw [gate_ld_apply, gate_ld_apply, gate_ld_apply, att_ld_apply, att_ld_apply]
  rfl

/-- Window 10's block after the body (the new cell state), at (p, q). -/
theorem out10_apply (p : Fin 256) (q : Fin 1024) :
    out0_10 x0 x1 x2 x3 x4 x5 x6 x7 x8 (ix2 p q) = cyB x0 x1 x2 x3 x4 x5 x6 x7 x8 p q := by
  unfold out0_10
  rw [View.canon_unit_zero hz]
  simp only [View.ld_unit_zero (S := S256x1024) hz]
  exact cy_pay_apply x0 x1 x2 x3 x4 x5 x6 x7 x8 p q

/-- Window 9's block after the body (the new hidden state), at (p, q). -/
theorem out9_apply (p : Fin 256) (q : Fin 1024) :
    out0_9 x0 x1 x2 x3 x4 x5 x6 x7 x8 (ix2 p q) = hyB x0 x1 x2 x3 x4 x5 x6 x7 x8 p q := by
  unfold out0_9
  rw [View.canon_unit_zero hz]
  simp only [View.ld_unit_zero (S := S256x1024) hz]
  rw [pay1_eq]
  show Ideal.logistic (gateV x0 x1 (View.ld x4 r0_11) (View.ld x5 r0_11) (View.ld x7 r0_12) (ix2 p q))
      * Ideal.tanh (k0_pay8 (k0_pay2 x0) (k0_pay3 x1) (k0_pay4 x2) x3 (k0_pay5 x0 x1 (View.ld x4 r0_1) (View.ld x5 r0_1) (View.ld x7 r0_2))
        (k0_pay6 x0 x1 (View.ld x4 r0_3) (View.ld x5 r0_3)) (k0_pay7 (View.ld x7 r0_4)) (View.ld x4 r0_5) (View.ld x5 r0_5)
        (View.ld x7 r0_6) (View.ld x6 r0_7) (View.ld x8 r0_8) (View.ld x6 r0_9) (View.ld x8 r0_10) (ix2 p q)) = _
  rw [cy_pay_apply, gate_ld_apply]
  rfl

end Blocks

end Cert.KernelIdeal.Body

end
-- ==== Proof.Bridge.lean ====
/-
  A grid point's two output blocks are the corresponding rows of the cell.

  If the point's four batch tiles hold rows P, P+1, … of the batch arrays (tile row p is batch row P), the weight
  stacks hold the transposed gate slabs of the weight matrices, and the bias stacks the (summed) bias vectors, then the
  values the body leaves at tile entry (p, q) are the new cell state and the new hidden state at (P, q): the two
  formulas are the same sums of the same terms.
-/
import proofs.«170726_j32744830664921_2_alg».proof.Proof.Body
import proofs.«170726_j32744830664921_2_alg».proof.Proof.Spec

noncomputable section

namespace Cert.KernelIdeal.Bridge

open Cert.KernelIdeal Cert.KernelIdeal.Body Idealize.ShloMosaic Idealize.ShloMosaic.ValueIdx Cert.Lstm

variable (I : Inputs)
  (x0 x1 x2 x3 : Vec Ideal S256x1024 .f32) (x4 x5 : Vec Ideal S4x1024x1024 .bf16) (x6 : Vec Ideal S2x1024x1024 .bf16)
  (x7 : Vec Ideal S4x1x1024 .f32) (x8 : Vec Ideal S2x1x1024 .f32) (P : Fin 8192) (p : Fin 256)

theorem preB_eq (h0 : ∀ k : Fin 1024, x0 (ix2 p k) = I.x (ix2 P k)) (h1 : ∀ k : Fin 1024, x1 (ix2 p k) = I.h (ix2 P k))
    (h4 : ∀ (g : Fin 4) (k q : Fin 1024), x4 (ix3 g k q) = I.wih (ix2 (row4 g q) k))
    (h5 : ∀ (g : Fin 4) (k q : Fin 1024), x5 (ix3 g k q) = I.whh (ix2 (row4 g q) k))
    (h7 : ∀ (g : Fin 4) (q : Fin 1024), x7 (ix3 g (0 : Fin 1) q) = I.bih (ix1 (row4 g q)) + I.bhh (ix1 (row4 g q)))
    (g : Fin 4) (q : Fin 1024) : preB x0 x1 x4 x5 x7 g p q = pre I g P q := by
  unfold preB pre
  simp only [h0, h1, h4, h5, h7]

theorem attB_eq (h2 : ∀ k : Fin 1024, x2 (ix2 p k) = I.a (ix2 P k))
    (h6 : ∀ (g : Fin 2) (k q : Fin 1024), x6 (ix3 g k q) = I.watt (ix2 (row2 g q) k))
    (h8 : ∀ (g : Fin 2) (q : Fin 1024), x8 (ix3 g (0 : Fin 1) q) = I.batt (ix1 (row2 g q)))
    (g : Fin 2) (q : Fin 1024) : attB x2 x6 x8 g p q = att I g P q := by
  unfold attB att
  simp only [h2, h6, h8]

theorem cyB_eq (h0 : ∀ k : Fin 1024, x0 (ix2 p k) = I.x (ix2 P k)) (h1 : ∀ k : Fin 1024, x1 (ix2 p k) = I.h (ix2 P k))
    (h2 : ∀ k : Fin 1024, x2 (ix2 p k) = I.a (ix2 P k)) (h3 : ∀ q : Fin 1024, x3 (ix2 p q) = I.cx (ix2 P q))
    (h4 : ∀ (g : Fin 4) (k q : Fin 1024), x4 (ix3 g k q) = I.wih (ix2 (row4 g q) k))
    (h5 : ∀ (g : Fin 4) (k q : Fin 1024), x5 (ix3 g k q) = I.whh (ix2 (row4 g q) k))
    (h6 : ∀ (g : Fin 2) (k q : Fin 1024), x6 (ix3 g k q) = I.watt (ix2 (row2 g q) k))
    (h7 : ∀ (g : Fin 4) (q : Fin 1024), x7 (ix3 g (0 : Fin 1) q) = I.bih (ix1 (row4 g q)) + I.bhh (ix1 (row4 g q)))
    (h8 : ∀ (g : Fin 2) (q : Fin 1024), x8 (ix3 g (0 : Fin 1) q) = I.batt (ix1 (row2 g q)))
    (q : Fin 1024) : cyB x0 x1 x2 x3 x4 x5 x6 x7 x8 p q = cy I P q := by
  unfold cyB cy
  rw [preB_eq I x0 x1 x4 x5 x7 P p h0 h1 h4 h5 h7 0 q, preB_eq I x0 x1 x4 x5 x7 P p h0 h1 h4 h5 h7 1 q,
    preB_eq I x0 x1 x4 x5 x7 P p h0 h1 h4 h5 h7 2 q, attB_eq I x2 x6 x8 P p h2 h6 h8 0 q, attB_eq I x2 x6 x8 P p h2 h6 h8 1 q, h3 q]

theorem hyB_eq (h0 : ∀ k : Fin 1024, x0 (ix2 p k) = I.x (ix2 P k)) (h1 : ∀ k : Fin 1024, x1 (ix2 p k) = I.h (ix2 P k))
    (h2 : ∀ k : Fin 1024, x2 (ix2 p k) = I.a (ix2 P k)) (h3 : ∀ q : Fin 1024, x3 (ix2 p q) = I.cx (ix2 P q))
    (h4 : ∀ (g : Fin 4) (k q : Fin 1024), x4 (ix3 g k q) = I.wih (ix2 (row4 g q) k))
    (h5 : ∀ (g : Fin 4) (k q : Fin 1024), x5 (ix3 g k q) = I.whh (ix2 (row4 g q) k))
    (h6 : ∀ (g : Fin 2) (k q : Fin 1024), x6 (ix3 g k q) = I.watt (ix2 (row2 g q) k))
    (h7 : ∀ (g : Fin 4) (q : Fin 1024), x7 (ix3 g (0 : Fin 1) q) = I.bih (ix1 (row4 g q)) + I.bhh (ix1 (row4 g q)))
    (h8 : ∀ (g : Fin 2) (q : Fin 1024), x8 (ix3 g (0 : Fin 1) q) = I.batt (ix1 (row2 g q)))
    (q : Fin 1024) : hyB x0 x1 x2 x3 x4 x5 x6 x7 x8 p q = hy I P q := by
  unfold hyB hy
  rw [preB_eq I x0 x1 x4 x5 x7 P p h0 h1 h4 h5 h7 3 q, cyB_eq I x0 x1 x2 x3 x4 x5 x6 x7 x8 P p h0 h1 h2 h3 h4 h5 h6 h7 h8 q]

end Cert.KernelIdeal.Bridge

end
-- ==== Proof.Blocks.lean ====
/-
  From the grid points' blocks to the two result arrays.

  The grid has 32 points; point t holds rows 256·t … 256·t + 255 of the four batch arrays and of the two results, and
  the whole of the five prepared arrays (their block index is 0 on every axis at every point).  So the blocks the
  body loads at point t are the rows of the arguments that the cell's formulas read for batch rows 256·t + p, what the
  point writes back is rows 256·t … of the cell's two arrays, and the 32 row bands cover the results: row r lies in
  the band of point r / 256.
-/
import proofs.«170726_j32744830664921_2_alg».proof.Proof.Gen.KernelIdeal.Value
import proofs.«170726_j32744830664921_2_alg».proof.Proof.HostPrep
import proofs.«170726_j32744830664921_2_alg».proof.Proof.Bridge

noncomputable section

namespace Cert.KernelIdeal.Blocks

open Cert.KernelIdeal Cert.KernelIdeal.Gen Cert.KernelIdeal.Value Cert.KernelIdeal.Body Cert.KernelIdeal.Bridge Cert.KernelIdeal.HostPrep
open Idealize.ShloMosaic Idealize.ShloMosaic.TcCoe Idealize.SL.Sem Idealize.ShloMosaic.ValueIdx Cert.Lstm
open Idealize.ShloMosaic.Pipeline (Dat)

variable (m : (ℓ : Loc nD τ sig) → Buf (Elt Ideal) ℓ) (ρ : Dev nD → PrngReg)

/-! ## The index maps, decided over the grid -/

/-- The six row-tiled windows are at block (t, 0) at point t. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-- The five whole windows are at block 0 on every axis at every point. -/
theorem idx_whole : ∀ t : Fin cfg0.N,
    (win0_4.index t (0 : Fin 3) = 0 ∧ win0_4.index t (1 : Fin 3) = 0 ∧ win0_4.index t (2 : Fin 3) = 0)
    ∧ (win0_5.index t (0 : Fin 3) = 0 ∧ win0_5.index t (1 : Fin 3) = 0 ∧ win0_5.index t (2 : Fin 3) = 0)
    ∧ (win0_6.index t (0 : Fin 3) = 0 ∧ win0_6.index t (1 : Fin 3) = 0 ∧ win0_6.index t (2 : Fin 3) = 0)
    ∧ (win0_7.index t (0 : Fin 3) = 0 ∧ win0_7.index t (1 : Fin 3) = 0 ∧ win0_7.index t (2 : Fin 3) = 0)
    ∧ (win0_8.index t (0 : Fin 3) = 0 ∧ win0_8.index t (1 : Fin 3) = 0 ∧ win0_8.index t (2 : Fin 3) = 0) :=
  (by decide +kernel : ∀ t : Fin grid0.N, _)

theorem t_lt (t : Fin cfg0.N) : t.val < 32 := by
  have h := t.isLt
  have hN : cfg0.N = 32 := N_0
  omega

/-- The batch row that tile row p of point t holds. -/
def brow (t : Fin cfg0.N) (p : Fin 256) : Fin 8192 := ⟨t.val * 256 + p.val, by have := t_lt t; have := p.isLt; omega⟩

/-! ## The input blocks as rows of the arguments -/

theorem iblk0_at (c : Dev nD) (t : Fin cfg0.N) (p : Fin 256) (k : Fin 1024) :
    (iblk m c 0 t : Vec Ideal S256x1024 .f32) (ix2 p k) = (inputs m c).x (ix2 (brow t p) k) := by
  obtain ⟨e0, e1, -⟩ := idx_rows t
  show V m c main_arg0 (((cfg0.win 0).blk t).view.emb (ix2 p k)) = _
  rw [V_main_arg0]
  show (inputs m c).x _ = _
  congr 1; funext a; apply Fin.ext
  match a with
  | ⟨0, _⟩ => show win0_0.index t (0 : Fin 2) * 256 + 1 * p.val = t.val * 256 + p.val; rw [e0]; omega
  | ⟨1, _⟩ => show win0_0.index t (1 : Fin 2) * 1024 + 1 * k.val = k.val; rw [e1]; omega

theorem iblk1_at (c : Dev nD) (t : Fin cfg0.N) (p : Fin 256) (k : Fin 1024) :
    (iblk m c 1 t : Vec Ideal S256x1024 .f32) (ix2 p k) = (inputs m c).h (ix2 (brow t p) k) := by
  obtain ⟨-, -, e0, e1, -⟩ := idx_rows t
  show V m c main_arg1 (((cfg0.win 1).blk t).view.emb (ix2 p k)) = _
  rw [V_main_arg1]
  show (inputs m c).h _ = _
  congr 1; funext a; apply Fin.ext
  match a with
  | ⟨0, _⟩ => show win0_1.index t (0 : Fin 2) * 256 + 1 * p.val = t.val * 256 + p.val; rw [e0]; omega
  | ⟨1, _⟩ => show win0_1.index t (1 : Fin 2) * 1024 + 1 * k.val = k.val; rw [e1]; omega

/-- Window 2 stages the fourth argument (att). -/
theorem iblk2_at (c : Dev nD) (t : Fin cfg0.N) (p : Fin 256) (k : Fin 1024) :
    (iblk m c 2 t : Vec Ideal S256x1024 .f32) (ix2 p k) = (inputs m c).a (ix2 (brow t p) k) := by
  obtain ⟨-, -, -, -, e0, e1, -⟩ := idx_rows t
  show V m c main_arg3 (((cfg0.win 2).blk t).view.emb (ix2 p k)) = _
  rw [V_main_arg3]
  show (inputs m c).a _ = _
  congr 1; funext a; apply Fin.ext
  match a with
  | ⟨0, _⟩ => show win0_2.index t (0 : Fin 2) * 256 + 1 * p.val = t.val * 256 + p.val; rw [e0]; omega
  | ⟨1, _⟩ => show win0_2.index t (1 : Fin 2) * 1024 + 1 * k.val = k.val; rw [e1]; omega

/-- Window 3 stages the third argument (cx). -/
theorem iblk3_at (c : Dev nD) (t : Fin cfg0.N) (p : Fin 256) (k : Fin 1024) :
    (iblk m c 3 t : Vec Ideal S256x1024 .f32) (ix2 p k) = (inputs m c).cx (ix2 (brow t p) k) := by
  obtain ⟨-, -, -, -, -, -, e0, e1, -⟩ := idx_rows t
  show V m c main_arg2 (((cfg0.win 3).blk t).view.emb (ix2 p k)) = _
  rw [V_main_arg2]
  show (inputs m c).cx _ = _
  congr 1; funext a; apply Fin.ext
  match a with
  | ⟨0, _⟩ => show win0_3.index t (0 : Fin 2) * 256 + 1 * p.val = t.val * 256 + p.val; rw [e0]; omega
  | ⟨1, _⟩ => show win0_3.index t (1 : Fin 2) * 1024 + 1 * k.val = k.val; rw [e1]; omega

theorem iblk4_at (c : Dev nD) (t : Fin cfg0.N) (g : Fin 4) (k q : Fin 1024) :
    (iblk m c 4 t : Vec Ideal S4x1024x1024 .bf16) (ix3 g k q) = (inputs m c).wih (ix2 (row4 g q) k) := by
  obtain ⟨⟨e0, e1, e2⟩, -⟩ := idx_whole t
  rw [← wih_at m c g k q]
  show V m c main_v2 (((cfg0.win 4).blk t).view.emb (ix3 g k q)) = V m c main_v2 (ix3 g k q)
  congr 1; funext a; apply Fin.ext
  match a with
  | ⟨0, _⟩ => show win0_4.index t (0 : Fin 3) * 4 + 1 * g.val = g.val; rw [e0]; omega
  | ⟨1, _⟩ => show win0_4.index t (1 : Fin 3) * 1024 + 1 * k.val = k.val; rw [e1]; omega
  | ⟨2, _⟩ => show win0_4.index t (2 : Fin 3) * 1024 + 1 * q.val = q.val; rw [e2]; omega

theorem iblk5_at (c : Dev nD) (t : Fin cfg0.N) (g : Fin 4) (k q : Fin 1024) :
    (iblk m c 5 t : Vec Ideal S4x1024x1024 .bf16) (ix3 g k q) = (inputs m c).whh (ix2 (row4 g q) k) := by
  obtain ⟨-, ⟨e0, e1, e2⟩, -⟩ := idx_whole t
  rw [← whh_at m c g k q]
  show V m c main_v5 (((cfg0.win 5).blk t).view.emb (ix3 g k q)) = V m c main_v5 (ix3 g k q)
  congr 1; funext a; apply Fin.ext
  match a with
  | ⟨0, _⟩ => show win0_5.index t (0 : Fin 3) * 4 + 1 * g.val = g.val; rw [e0]; omega
  | ⟨1, _⟩ => show win0_5.index t (1 : Fin 3) * 1024 + 1 * k.val = k.val; rw [e1]; omega
  | ⟨2, _⟩ => show win0_5.index t (2 : Fin 3) * 1024 + 1 * q.val = q.val; rw [e2]; omega

theorem iblk6_at (c : Dev nD) (t : Fin cfg0.N) (g : Fin 2) (k q : Fin 1024) :
    (iblk m c 6 t : Vec Ideal S2x1024x1024 .bf16) (ix3 g k q) = (inputs m c).watt (ix2 (row2 g q) k) := by
  obtain ⟨-, -, ⟨e0, e1, e2⟩, -⟩ := idx_whole t
  rw [← watt_at m c g k q]
  show V m c main_v8 (((cfg0.win 6).blk t).view.emb (ix3 g k q)) = V m c main_v8 (ix3 g k q)
  congr 1; funext a; apply Fin.ext
  match a with
  | ⟨0, _⟩ => show win0_6.index t (0 : Fin 3) * 2 + 1 * g.val = g.val; rw [e0]; omega
  | ⟨1, _⟩ => show win0_6.index t (1 : Fin 3) * 1024 + 1 * k.val = k.val; rw [e1]; omega
  | ⟨2, _⟩ => show win0_6.index t (2 : Fin 3) * 1024 + 1 * q.val = q.val; rw [e2]; omega

theorem iblk7_at (c : Dev nD) (t : Fin cfg0.N) (g : Fin 4) (q : Fin 1024) :
    (iblk m c 7 t : Vec Ideal S4x1x1024 .f32) (ix3 g (0 : Fin 1) q)
      = (inputs m c).bih (ix1 (row4 g q)) + (inputs m c).bhh (ix1 (row4 g q)) := by
  obtain ⟨-, -, -, ⟨e0, e1, e2⟩, -⟩ := idx_whole t
  rw [← bias_at m c g q]
  show V m c main_v10 (((cfg0.win 7).blk t).view.emb (ix3 g (0 : Fin 1) q)) = V m c main_v10 (ix3 g (0 : Fin 1) q)
  congr 1; funext a; apply Fin.ext
  match a with
  | ⟨0, _⟩ => show win0_7.index t (0 : Fin 3) * 4 + 1 * g.val = g.val; rw [e0]; omega
  | ⟨1, _⟩ => show win0_7.index t (1 : Fin 3) * 1 + 1 * 0 = 0; rw [e1]
  | ⟨2, _⟩ => show win0_7.index t (2 : Fin 3) * 1024 + 1 * q.val = q.val; rw [e2]; omega

theorem iblk8_at (c : Dev nD) (t : Fin cfg0.N) (g : Fin 2) (q : Fin 1024) :
    (iblk m c 8 t : Vec Ideal S2x1x1024 .f32) (ix3 g (0 : Fin 1) q) = (inputs m c).batt (ix1 (row2 g q)) := by
  obtain ⟨-, -, -, -, e0, e1, e2⟩ := idx_whole t
  rw [← batt_at m c g q]
  show V m c main_v11 (((cfg0.win 8).blk t).view.emb (ix3 g (0 : Fin 1) q)) = V m c main_v11 (ix3 g (0 : Fin 1) q)
  congr 1; funext a; apply Fin.ext
  match a with
  | ⟨0, _⟩ => show win0_8.index t (0 : Fin 3) * 2 + 1 * g.val = g.val; rw [e0]; omega
  | ⟨1, _⟩ => show win0_8.index t (1 : Fin 3) * 1 + 1 * 0 = 0; rw [e1]
  | ⟨2, _⟩ => show win0_8.index t (2 : Fin 3) * 1024 + 1 * q.val = q.val; rw [e2]; omega

/-! ## What a point writes back -/

/-- Point t writes back rows 256·t … of the new cell state. -/
theorem flushed10_eq (c : Dev nD) (t : Fin cfg0.N) :
    (dats m 0 c).flushed 10 t = ((cfg0.win 10).blk t).view.read (Elt Ideal) (cyArr (inputs m c)) := by
  rw [Value.flushed10]
  obtain ⟨-, -, -, -, -, -, -, -, -, -, e0, e1⟩ := idx_rows t
  funext j
  obtain ⟨p, q, rfl⟩ : ∃ (p : Fin 256) (q : Fin 1024), j = ix2 p q := ⟨j 0, j 1, eq_ix2 j⟩
  show out0_10 (iblk m c 0 t) (iblk m c 1 t) (iblk m c 2 t) (iblk m c 3 t) (iblk m c 4 t) (iblk m c 5 t) (iblk m c 6 t) (iblk m c 7 t) (iblk m c 8 t) (ix2 p q)
    = cyArr (inputs m c) (((cfg0.win 10).blk t).view.emb (ix2 p q))
  have hemb : ((cfg0.win 10).blk t).view.emb (ix2 p q) = ix2 (brow t p) q := by
    funext a; apply Fin.ext
    match a with
    | ⟨0, _⟩ => show win0_10.index t (0 : Fin 2) * 256 + 1 * p.val = t.val * 256 + p.val; rw [e0]; omega
    | ⟨1, _⟩ => show win0_10.index t (1 : Fin 2) * 1024 + 1 * q.val = q.val; rw [e1]; omega
  rw [hemb, cyArr_apply]
  refine (out10_apply (iblk m c 0 t) (iblk m c 1 t) (iblk m c 2 t) (iblk m c 3 t) (iblk m c 4 t) (iblk m c 5 t) (iblk m c 6 t) (iblk m c 7 t) (iblk m c 8 t) p q).trans ?_
  exact cyB_eq (inputs m c) (iblk m c 0 t) (iblk m c 1 t) (iblk m c 2 t) (iblk m c 3 t) (iblk m c 4 t) (iblk m c 5 t) (iblk m c 6 t) (iblk m c 7 t) (iblk m c 8 t) (brow t p) p
    (fun k => iblk0_at m c t p k) (fun k => iblk1_at m c t p k) (fun k => iblk2_at m c t p k) (fun q' => iblk3_at m c t p q')
    (fun g k q' => iblk4_at m c t g k q') (fun g k q' => iblk5_at m c t g k q') (fun g k q' => iblk6_at m c t g k q')
    (fun g q' => iblk7_at m c t g q') (fun g q' => iblk8_at m c t g q') q

/-- Point t writes back rows 256·t … of the new hidden state. -/
theorem flushed9_eq (c : Dev nD) (t : Fin cfg0.N) :
    (dats m 0 c).flushed 9 t = ((cfg0.win 9).blk t).view.read (Elt Ideal) (hyArr (inputs m c)) := by
  rw [Value.flushed9]
  obtain ⟨-, -, -, -, -, -, -, -, e0, e1, -⟩ := idx_rows t
  funext j
  obtain ⟨p, q, rfl⟩ : ∃ (p : Fin 256) (q : Fin 1024), j = ix2 p q := ⟨j 0, j 1, eq_ix2 j⟩
  show out0_9 (iblk m c 0 t) (iblk m c 1 t) (iblk m c 2 t) (iblk m c 3 t) (iblk m c 4 t) (iblk m c 5 t) (iblk m c 6 t) (iblk m c 7 t) (iblk m c 8 t) (ix2 p q)
    = hyArr (inputs m c) (((cfg0.win 9).blk t).view.emb (ix2 p q))
  have hemb : ((cfg0.win 9).blk t).view.emb (ix2 p q) = ix2 (brow t p) q := by
    funext a; apply Fin.ext
    match a with
    | ⟨0, _⟩ => show win0_9.index t (0 : Fin 2) * 256 + 1 * p.val = t.val * 256 + p.val; rw [e0]; omega
    | ⟨1, _⟩ => show win0_9.index t (1 : Fin 2) * 1024 + 1 * q.val = q.val; rw [e1]; omega
  rw [hemb, hyArr_apply]
  refine (out9_apply (iblk m c 0 t) (iblk m c 1 t) (iblk m c 2 t) (iblk m c 3 t) (iblk m c 4 t) (iblk m c 5 t) (iblk m c 6 t) (iblk m c 7 t) (iblk m c 8 t) p q).trans ?_
  exact hyB_eq (inputs m c) (iblk m c 0 t) (iblk m c 1 t) (iblk m c 2 t) (iblk m c 3 t) (iblk m c 4 t) (iblk m c 5 t) (iblk m c 6 t) (iblk m c 7 t) (iblk m c 8 t) (brow t p) p
    (fun k => iblk0_at m c t p k) (fun k => iblk1_at m c t p k) (fun k => iblk2_at m c t p k) (fun q' => iblk3_at m c t p q')
    (fun g k q' => iblk4_at m c t g k q') (fun g k q' => iblk5_at m c t g k q') (fun g k q' => iblk6_at m c t g k q')
    (fun g q' => iblk7_at m c t g q') (fun g q' => iblk8_at m c t g q') q

/-! ## The row bands cover the results -/

theorem mem_blk10 (t : Fin cfg0.N) (i : S8192x1024.Idx) :
    i ∈ ((cfg0.win 10).blk t).view.set ↔ ∀ a : Fin 2, win0_10.index t a * S256x1024.size a ≤ (i a).val ∧ (i a).val < win0_10.index t a * S256x1024.size a + S256x1024.size a := by
  show i ∈ ((View.whole main_v12_1).slice (win0_10.rect t)).set ↔ _
  rw [View.set_slice_whole, Rect.mem_set_unit]
  exact Iff.rfl

theorem mem_blk9 (t : Fin cfg0.N) (i : S8192x1024.Idx) :
    i ∈ ((cfg0.win 9).blk t).view.set ↔ ∀ a : Fin 2, win0_9.index t a * S256x1024.size a ≤ (i a).val ∧ (i a).val < win0_9.index t a * S256x1024.size a + S256x1024.size a := by
  show i ∈ ((View.whole main_v12_0).slice (win0_9.rect t)).set ↔ _
  rw [View.set_slice_whole, Rect.mem_set_unit]
  exact Iff.rfl

/-- Row r of the cell-state array lies in the band of point r / 256. -/
theorem cover10 (i : S8192x1024.Idx) :
    ∃ t : Fin cfg0.N, (cfg0.win 10).flush t = true ∧ i ∈ ((cfg0.win 10).blk t).view.set := by
  have hi0 : (i 0).val < 8192 := (i 0).isLt
  have hi1 : (i 1).val < 1024 := (i 1).isLt
  have hN : cfg0.N = 32 := N_0
  have hlt : (i 0).val / 256 < cfg0.N := by rw [hN]; omega
  obtain ⟨-, -, -, -, -, -, -, -, -, -, e0, e1⟩ := idx_rows ⟨(i 0).val / 256, hlt⟩
  refine ⟨⟨(i 0).val / 256, hlt⟩, flush0_10 _, ?_⟩
  rw [mem_blk10]
  intro a
  match a with
  | ⟨0, _⟩ =>
    show win0_10.index ⟨(i 0).val / 256, hlt⟩ (0 : Fin 2) * 256 ≤ (i 0).val ∧ (i 0).val < win0_10.index ⟨(i 0).val / 256, hlt⟩ (0 : Fin 2) * 256 + 256
    rw [e0]; show (i 0).val / 256 * 256 ≤ (i 0).val ∧ (i 0).val < (i 0).val / 256 * 256 + 256; omega
  | ⟨1, _⟩ =>
    show win0_10.index ⟨(i 0).val / 256, hlt⟩ (1 : Fin 2) * 1024 ≤ (i 1).val ∧ (i 1).val < win0_10.index ⟨(i 0).val / 256, hlt⟩ (1 : Fin 2) * 1024 + 1024
    rw [e1]; omega

/-- Row r of the hidden-state array lies in the band of point r / 256. -/
theorem cover9 (i : S8192x1024.Idx) :
    ∃ t : Fin cfg0.N, (cfg0.win 9).flush t = true ∧ i ∈ ((cfg0.win 9).blk t).view.set := by
  have hi0 : (i 0).val < 8192 := (i 0).isLt
  have hi1 : (i 1).val < 1024 := (i 1).isLt
  have hN : cfg0.N = 32 := N_0
  have hlt : (i 0).val / 256 < cfg0.N := by rw [hN]; omega
  obtain ⟨-, -, -, -, -, -, -, -, e0, e1, -⟩ := idx_rows ⟨(i 0).val / 256, hlt⟩
  refine ⟨⟨(i 0).val / 256, hlt⟩, flush0_9 _, ?_⟩
  rw [mem_blk9]
  intro a
  match a with
  | ⟨0, _⟩ =>
    show win0_9.index ⟨(i 0).val / 256, hlt⟩ (0 : Fin 2) * 256 ≤ (i 0).val ∧ (i 0).val < win0_9.index ⟨(i 0).val / 256, hlt⟩ (0 : Fin 2) * 256 + 256
    rw [e0]; show (i 0).val / 256 * 256 ≤ (i 0).val ∧ (i 0).val < (i 0).val / 256 * 256 + 256; omega
  | ⟨1, _⟩ =>
    show win0_9.index ⟨(i 0).val / 256, hlt⟩ (1 : Fin 2) * 1024 ≤ (i 1).val ∧ (i 1).val < win0_9.index ⟨(i 0).val / 256, hlt⟩ (1 : Fin 2) * 1024 + 1024
    rw [e1]; omega

/-! ## The two result arrays, and the run -/

/-- The second result array ends holding the new cell state. -/
theorem final10 (c : Dev nD) : (dats m 0 c).arrAt 10 cfg0.N = cyArr (inputs m c) :=
  (dats m 0 c).arrAt_eq_of_cover 10 (cyArr (inputs m c)) (fun t _ => flushed10_eq m c t) cover10

/-- The first result array ends holding the new hidden state. -/
theorem final9 (c : Dev nD) : (dats m 0 c).arrAt 9 cfg0.N = hyArr (inputs m c) :=
  (dats m 0 c).arrAt_eq_of_cover 9 (hyArr (inputs m c)) (fun t _ => flushed9_eq m c t) cover9

/-- The kernel's run: the two results at the cell's arrays of the arguments, the arguments unchanged. -/
theorem run : θ_run defs (onTc (τ := τ) (main (F := Ideal))) ⟨m, fun _ => 0, ρ⟩ fun r => ∀ c : Dev nD,
      r.2.mem ((c : Thread nD τ).loc main_v12_0) = hyArr (inputs m c)
      ∧ r.2.mem ((c : Thread nD τ).loc main_v12_1) = cyArr (inputs m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final9 m c), (h c).2.1.trans (final10 m c), (h c).2.2⟩)
    (Value.run_blocks m ρ)

end Cert.KernelIdeal.Blocks

end
-- ==== Proof.RefSpec.lean ====
/-
  The reference computes the cell.

  The reference multiplies the whole batch by the whole (transposed) weight matrices, adds the biases one after the
  other, and cuts the gates out of the columns of the [8192, 4096] and [8192, 2048] results: column g·1024 + q of the
  product is gate g's value for hidden unit q.  Its logistic is spelled 1 / (1 + exp(-t)), which on the extended reals
  is the logistic function itself.  Entry by entry its two results are the cell's formulas up to the grouping of the
  bias terms ((S₁ + b₁) + S₂) + b₂ = (S₁ + S₂) + (b₁ + b₂) and the order of two summands of the cell state — laws
  of addition that hold on the extended reals without any finiteness assumption.
-/
import proofs.«170726_j32744830664921_2_alg».proof.Proof.Gen.ReferenceIdeal.Read
import proofs.«170726_j32744830664921_2_alg».proof.Proof.Spec
import Idealize.ShloMosaic.Lib.IdealHost
import Idealize.ShloMosaic.Lib.ValueIdx

noncomputable section

namespace Cert.ReferenceIdeal.RefSpec

open Cert.ReferenceIdeal Cert.ReferenceIdeal.Gen Cert.ReferenceIdeal.Read Idealize.ShloMosaic Idealize.ShloMosaic.ValueIdx Cert.Lstm

variable (I : Inputs)

/-! ## The two wide products with their biases -/

/-- Column n of the LSTM gates' array at batch row p, in the reference's grouping. -/
theorem gates_at (p : Fin 8192) (n : Fin 4096) :
    val_main_v10 (F := Ideal) I.x I.h I.wih I.whh I.bih I.bhh (ix2 p n)
      = ((∑ k : Fin 1024, I.x (ix2 p k) * I.wih (ix2 n k) + I.bih (ix1 n)) + ∑ k : Fin 1024, I.h (ix2 p k) * I.whh (ix2 n k))
          + I.bhh (ix1 n) := by
  rw [val_main_v10_apply, val_main_v7_apply, val_main_v4_apply, val_main_v1_apply, val_main_v6_apply, val_main_v3_apply,
    val_main_v2_apply, val_main_v9_apply, val_main_v8_apply]
  simp only [val_main_v0_apply, val_main_v5_apply]
  have el1 : ∀ k : Fin 1024, lidx_main_v1 (ix2 p n) k = ix2 p k := fun k => funext fun a => Fin.ext (by
    match a with | ⟨0, _⟩ => rfl | ⟨1, _⟩ => rfl)
  have er1 : ∀ k : Fin 1024, idx_main_v0 (ridx_main_v1 (ix2 p n) k) = ix2 n k := fun k => funext fun a => Fin.ext (by
    match a with | ⟨0, _⟩ => rfl | ⟨1, _⟩ => rfl)
  have el6 : ∀ k : Fin 1024, lidx_main_v6 (ix2 p n) k = ix2 p k := fun k => funext fun a => Fin.ext (by
    match a with | ⟨0, _⟩ => rfl | ⟨1, _⟩ => rfl)
  have er6 : ∀ k : Fin 1024, idx_main_v5 (ridx_main_v6 (ix2 p n) k) = ix2 n k := fun k => funext fun a => Fin.ext (by
    match a with | ⟨0, _⟩ => rfl | ⟨1, _⟩ => rfl)
  have eb1 : idx_main_v2 (idx_main_v3 (ix2 p n)) = ix1 n := funext fun a => Fin.ext (by
    match a with | ⟨0, _⟩ => rfl)
  have eb2 : idx_main_v8 (idx_main_v9 (ix2 p n)) = ix1 n := funext fun a => Fin.ext (by
    match a with | ⟨0, _⟩ => rfl)
  simp only [el1, er1, el6, er6, eb1, eb2]
  rfl

/-- Column n of the attention gates' array at batch row p. -/
theorem attgates_at (p : Fin 8192) (n : Fin 2048) :
    val_main_v15 (F := Ideal) I.a I.watt I.batt (ix2 p n)
      = ∑ k : Fin 1024, I.a (ix2 p k) * I.watt (ix2 n k) + I.batt (ix1 n) := by
  rw [val_main_v15_apply, val_main_v12_apply, val_main_v14_apply, val_main_v13_apply]
  simp only [val_main_v11_apply]
  have el : ∀ k : Fin 1024, lidx_main_v12 (ix2 p n) k = ix2 p k := fun k => funext fun a => Fin.ext (by
    match a with | ⟨0, _⟩ => rfl | ⟨1, _⟩ => rfl)
  have er : ∀ k : Fin 1024, idx_main_v11 (ridx_main_v12 (ix2 p n) k) = ix2 n k := fun k => funext fun a => Fin.ext (by
    match a with | ⟨0, _⟩ => rfl | ⟨1, _⟩ => rfl)
  have eb : idx_main_v13 (idx_main_v14 (ix2 p n)) = ix1 n := funext fun a => Fin.ext (by
    match a with | ⟨0, _⟩ => rfl)
  simp only [el, er, eb]
  rfl

/-- The reference's grouping of a gate's terms is the cell's. -/
theorem gates_pre (g : Fin 4) (p : Fin 8192) (q : Fin 1024) :
    val_main_v10 (F := Ideal) I.x I.h I.wih I.whh I.bih I.bhh (ix2 p (row4 g q)) = pre I g p q := by
  rw [gates_at]
  unfold pre
  rw [add_assoc, add_add_add_comm]

theorem attgates_att (g : Fin 2) (p : Fin 8192) (q : Fin 1024) :
    val_main_v15 (F := Ideal) I.a I.watt I.batt (ix2 p (row2 g q)) = att I g p q := by
  rw [attgates_at]
  rfl

/-! ## The gates cut out of the columns -/

theorem slice0 (p : Fin 8192) (q : Fin 1024) :
    val_main_v16 (F := Ideal) I.x I.h I.wih I.whh I.bih I.bhh (ix2 p q) = pre I 0 p q := by
  rw [val_main_v16_apply, ← gates_pre]
  congr 1; funext a; apply Fin.ext
  match a with
  | ⟨0, _⟩ => rfl
  | ⟨1, _⟩ => show q.val = 0 * 1024 + q.val; omega

theorem slice1 (p : Fin 8192) (q : Fin 1024) :
    val_main_v17 (F := Ideal) I.x I.h I.wih I.whh I.bih I.bhh (ix2 p q) = pre I 1 p q := by
  rw [val_main_v17_apply, ← gates_pre]
  congr 1; funext a; apply Fin.ext
  match a with
  | ⟨0, _⟩ => rfl
  | ⟨1, _⟩ => show 1024 + q.val = 1 * 1024 + q.val; omega

theorem slice2 (p : Fin 8192) (q : Fin 1024) :
    val_main_v18 (F := Ideal) I.x I.h I.wih I.whh I.bih I.bhh (ix2 p q) = pre I 2 p q := by
  rw [val_main_v18_apply, ← gates_pre]
  congr 1; funext a; apply Fin.ext
  match a with
  | ⟨0, _⟩ => rfl
  | ⟨1, _⟩ => show 2048 + q.val = 2 * 1024 + q.val; omega

theorem slice3 (p : Fin 8192) (q : Fin 1024) :
    val_main_v19 (F := Ideal) I.x I.h I.wih I.whh I.bih I.bhh (ix2 p q) = pre I 3 p q := by
  rw [val_main_v19_apply, ← gates_pre]
  congr 1; funext a; apply Fin.ext
  match a with
  | ⟨0, _⟩ => rfl
  | ⟨1, _⟩ => show 3072 + q.val = 3 * 1024 + q.val; omega

theorem aslice0 (p : Fin 8192) (q : Fin 1024) :
    val_main_v20 (F := Ideal) I.a I.watt I.batt (ix2 p q) = att I 0 p q := by
  rw [val_main_v20_apply, ← attgates_att]
  congr 1; funext a; apply Fin.ext
  match a with
  | ⟨0, _⟩ => rfl
  | ⟨1, _⟩ => show q.val = 0 * 1024 + q.val; omega

theorem aslice1 (p : Fin 8192) (q : Fin 1024) :
    val_main_v21 (F := Ideal) I.a I.watt I.batt (ix2 p q) = att I 1 p q := by
  rw [val_main_v21_apply, ← attgates_att]
  congr 1; funext a; apply Fin.ext
  match a with
  | ⟨0, _⟩ => rfl
  | ⟨1, _⟩ => show 1024 + q.val = 1 * 1024 + q.val; omega

/-! ## The activations -/

/-- 1 / (1 + exp(-t)) with the two ones read from their bit patterns is the logistic function. -/
theorem logistic_spelled (t : EReal) :
    Ideal.div (Ideal.ofBits .f32 0x3F800000#32) (Ideal.ofBits .f32 0x3F800000#32 + Ideal.exp (-t)) = Ideal.logistic t := by
  rw [Ideal.ofBits_one_f32]; rfl

theorem sig0 (i : S8192x1024.Idx) :
    val_main_v27 (F := Ideal) I.x I.h I.wih I.whh I.bih I.bhh i
      = Ideal.logistic (val_main_v16 (F := Ideal) I.x I.h I.wih I.whh I.bih I.bhh i) := by
  rw [val_main_v27_apply, val_main_v26_apply, val_main_cst_0_apply, val_main_v25_apply, val_main_v24_apply,
    val_main_cst_apply, val_main_v23_apply, val_main_v22_apply]
  exact logistic_spelled _

theorem sig1 (i : S8192x1024.Idx) :
    val_main_v33 (F := Ideal) I.x I.h I.wih I.whh I.bih I.bhh i
      = Ideal.logistic (val_main_v17 (F := Ideal) I.x I.h I.wih I.whh I.bih I.bhh i) := by
  rw [val_main_v33_apply, val_main_v32_apply, val_main_cst_2_apply, val_main_v31_apply, val_main_v30_apply,
    val_main_cst_1_apply, val_main_v29_apply, val_main_v28_apply]
  exact logistic_spelled _

theorem sig3 (i : S8192x1024.Idx) :
    val_main_v47 (F := Ideal) I.x I.h I.wih I.whh I.bih I.bhh i
      = Ideal.logistic (val_main_v19 (F := Ideal) I.x I.h I.wih I.whh I.bih I.bhh i) := by
  rw [val_main_v47_apply, val_main_v46_apply, val_main_cst_6_apply, val_main_v45_apply, val_main_v44_apply,
    val_main_cst_5_apply, val_main_v43_apply, val_main_v42_apply]
  exact logistic_spelled _

theorem asig0 (i : S8192x1024.Idx) :
    val_main_v40 (F := Ideal) I.a I.watt I.batt i = Ideal.logistic (val_main_v20 (F := Ideal) I.a I.watt I.batt i) := by
  rw [val_main_v40_apply, val_main_v39_apply, val_main_cst_4_apply, val_main_v38_apply, val_main_v37_apply,
    val_main_cst_3_apply, val_main_v36_apply, val_main_v35_apply]
  exact logistic_spelled _

/-! ## The two results -/

/-- The reference's cell state is the cell's. -/
theorem cy_at (p : Fin 8192) (q : Fin 1024) :
    val_main_v52 (F := Ideal) I.x I.h I.cx I.a I.wih I.whh I.bih I.bhh I.watt I.batt (ix2 p q) = cy I p q := by
  rw [val_main_v52_apply, val_main_v50_apply, val_main_v48_apply, val_main_v49_apply, val_main_v51_apply, val_main_v34_apply,
    val_main_v41_apply, sig0, sig1, asig0, slice0, slice1, slice2, aslice0, aslice1]
  unfold cy
  show (Ideal.logistic (pre I 1 p q) * I.cx (ix2 p q) + Ideal.logistic (pre I 0 p q) * Ideal.tanh (pre I 2 p q))
      + Ideal.logistic (att I 0 p q) * Ideal.tanh (att I 1 p q) = _
  rw [add_comm (Ideal.logistic (pre I 1 p q) * I.cx (ix2 p q))]

/-- The reference's hidden state is the cell's. -/
theorem hy_at (p : Fin 8192) (q : Fin 1024) :
    val_main_v54 (F := Ideal) I.x I.h I.cx I.a I.wih I.whh I.bih I.bhh I.watt I.batt (ix2 p q) = hy I p q := by
  rw [val_main_v54_apply, val_main_v53_apply, sig3, slice3, cy_at]
  rfl

theorem cy_eq : val_main_v52 (F := Ideal) I.x I.h I.cx I.a I.wih I.whh I.bih I.bhh I.watt I.batt = cyArr I := by
  funext i
  obtain ⟨p, q, rfl⟩ : ∃ (p : Fin 8192) (q : Fin 1024), i = ix2 p q := ⟨i 0, i 1, eq_ix2 i⟩
  exact cy_at I p q

theorem hy_eq : val_main_v54 (F := Ideal) I.x I.h I.cx I.a I.wih I.whh I.bih I.bhh I.watt I.batt = hyArr I := by
  funext i
  obtain ⟨p, q, rfl⟩ : ∃ (p : Fin 8192) (q : Fin 1024), i = ix2 p q := ⟨i 0, i 1, eq_ix2 i⟩
  exact hy_at I p q

end Cert.ReferenceIdeal.RefSpec

end
-- ==== Proof.lean ====
/-
  An LSTM cell with an attention gate: the kernel against its jnp reference, on the extended reals.

  Both programs compute, for every batch row p and hidden unit q,

    cy(p,q) = (σ(pre 0)·tanh(pre 2) + σ(pre 1)·cx(p,q)) + σ(att 0)·tanh(att 1),      hy(p,q) = σ(pre 3)·tanh(cy(p,q)),
    pre g = (Σ_k x(p,k)·wih(g·1024+q,k) + Σ_k h(p,k)·whh(g·1024+q,k)) + (bih(g·1024+q) + bhh(g·1024+q)),
    att g =  Σ_k a(p,k)·watt(g·1024+q,k) + batt(g·1024+q).

  The kernel reaches it by 32 row bands of 256 batch rows, one matrix product per gate against weight slabs the host
  has split off, transposed and narrowed beforehand (a change of float format is the identity here), with the two LSTM
  biases added beforehand.  The reference takes two wide products, adds the biases one after the other, cuts the
  gates out of the columns, and spells the logistic 1/(1 + exp(-t)).  The differences are a regrouping of sums —
  ((S₁ + b₁) + S₂) + b₂ = (S₁ + S₂) + (b₁ + b₂), and u + v = v + u in the cell state — which addition on the
  extended reals allows without any finiteness assumption, so the precondition is never opened.

  Spec: the cell as one function of the arguments.  Body: what one grid point's body leaves, from its loaded blocks.
  HostPrep: the prepared arrays as functions of the arguments.  Bridge, Blocks: a point's blocks are rows of the cell;
  the bands cover the results.  RefSpec: the reference's two results are the cell.
-/
import proofs.«170726_j32744830664921_2_alg».proof.Defs
import proofs.«170726_j32744830664921_2_alg».proof.Proof.Gen.Kernel
import proofs.«170726_j32744830664921_2_alg».proof.Proof.Gen.Kernel.Skeleton
import proofs.«170726_j32744830664921_2_alg».proof.Proof.Gen.Kernel.Launch
import proofs.«170726_j32744830664921_2_alg».proof.Proof.Gen.Kernel.Points
import proofs.«170726_j32744830664921_2_alg».proof.Proof.Gen.Kernel.Frame
import proofs.«170726_j32744830664921_2_alg».proof.Proof.Gen.KernelIdeal
import proofs.«170726_j32744830664921_2_alg».proof.Proof.Gen.KernelIdeal.Skeleton
import proofs.«170726_j32744830664921_2_alg».proof.Proof.Gen.KernelIdeal.Launch
import proofs.«170726_j32744830664921_2_alg».proof.Proof.Gen.KernelIdeal.Points
import proofs.«170726_j32744830664921_2_alg».proof.Proof.Gen.KernelIdeal.Frame
import proofs.«170726_j32744830664921_2_alg».proof.Proof.Gen.ReferenceIdeal
import proofs.«170726_j32744830664921_2_alg».proof.Proof.Gen.KernelIdeal.Value
import proofs.«170726_j32744830664921_2_alg».proof.Proof.Gen.ReferenceIdeal.Run
import proofs.«170726_j32744830664921_2_alg».proof.Proof.Gen.ReferenceIdeal.Read
import proofs.«170726_j32744830664921_2_alg».proof.Proof.Gen.Pre_finite_inputs
import proofs.«170726_j32744830664921_2_alg».proof.Proof.Blocks
import proofs.«170726_j32744830664921_2_alg».proof.Proof.RefSpec
import Idealize.ShloMosaic.Adequacy
import Idealize.ShloMosaic.Init

noncomputable section

namespace Cert.Proof

open Idealize.ShloMosaic Idealize.SL.Sem Cert.Lstm

/-- The word-level kernel runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and leaves its arguments as they were: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Nothing of the kernel was rewritten for the extended reals: there is nothing to preserve. -/
theorem preserves : Cert.preserves_Kernel_KernelIdeal := trivial

/-- From arguments that agree, the kernel's two result arrays and the reference's are the cell's new hidden state and
    new cell state of those arguments. -/
theorem algebraic : Cert.algebraic_KernelIdeal_ReferenceIdeal := by
  intro m ρ m' ρ' _ hagree
  refine ⟨fun c => hyArr (Cert.KernelIdeal.HostPrep.inputs m c), fun c => cyArr (Cert.KernelIdeal.HostPrep.inputs m c),
    Cert.KernelIdeal.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9⟩ := hagree c
    rw [Cert.ReferenceIdeal.Read.val_main_v54_eq, a0, a1, a2, a3, a4, a5, a6, a7, a8, a9]
    exact Cert.ReferenceIdeal.RefSpec.hy_eq (Cert.KernelIdeal.HostPrep.inputs m c)
  · obtain ⟨a0, a1, a2, a3, a4, a5, a6, a7, a8, a9⟩ := hagree c
    rw [Cert.ReferenceIdeal.Read.val_main_v52_eq, a0, a1, a2, a3, a4, a5, a6, a7, a8, a9]
    exact Cert.ReferenceIdeal.RefSpec.cy_eq (Cert.KernelIdeal.HostPrep.inputs m c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
